-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S2x100000 : Shape := ⟨2, ![2, 100000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S2x800000 32) (main_arg8 : IVec S2x100000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S2x100000 : Shape := ⟨2, ![2, 100000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128 : Shape := ⟨2, ![1, 128]⟩
abbrev S10000x128 : Shape := ⟨2, ![10000, 128]⟩
abbrev S850000x128 : Shape := ⟨2, ![850000, 128]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩

abbrev nBuf : Space → Nat
  | .hbm => 129
  | .vmem => 22
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x800000, .i32⟩
  | 8 => ⟨S2x100000, .i32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S1x128, .f32⟩
  | 46 => ⟨S1x128, .f32⟩
  | 47 => ⟨S1x128, .f32⟩
  | 48 => ⟨S50000x128, .bf16⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x128, .bf16⟩
  | 58 => ⟨S850000x128, .f32⟩
  | 59 => ⟨S850000x1, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S50000x128, .bf16⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000x128, .bf16⟩
  | 76 => ⟨S850000x128, .f32⟩
  | 77 => ⟨S850000x1, .f32⟩
  | 78 => ⟨S850000x128, .f32⟩
  | 79 => ⟨S850000x128, .f32⟩
  | 80 => ⟨S_, .f32⟩
  | 81 => ⟨S50000x128, .f32⟩
  | 82 => ⟨S850000x1, .i32⟩
  | 83 => ⟨S50000x128, .f32⟩
  | 84 => ⟨S50000x128, .bf16⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x128, .bf16⟩
  | 94 => ⟨S850000x128, .f32⟩
  | 95 => ⟨S850000x1, .f32⟩
  | 96 => ⟨S850000x128, .f32⟩
  | 97 => ⟨S850000x128, .f32⟩
  | 98 => ⟨S_, .f32⟩
  | 99 => ⟨S50000x128, .f32⟩
  | 100 => ⟨S850000x1, .i32⟩
  | 101 => ⟨S50000x128, .f32⟩
  | 102 => ⟨S50000x128, .bf16⟩
  | 103 => ⟨S50000x128, .f32⟩
  | 104 => ⟨S1x100000, .i32⟩
  | 105 => ⟨S100000, .i32⟩
  | 106 => ⟨S_, .i32⟩
  | 107 => ⟨S100000, .i32⟩
  | 108 => ⟨S100000, .i1⟩
  | 109 => ⟨S_, .i32⟩
  | 110 => ⟨S100000, .i32⟩
  | 111 => ⟨S100000, .i32⟩
  | 112 => ⟨S100000, .i32⟩
  | 113 => ⟨S100000x1, .i32⟩
  | 114 => ⟨S100000x128, .f32⟩
  | 115 => ⟨S1x100000, .i32⟩
  | 116 => ⟨S100000, .i32⟩
  | 117 => ⟨S_, .i32⟩
  | 118 => ⟨S100000, .i32⟩
  | 119 => ⟨S100000, .i1⟩
  | 120 => ⟨S_, .i32⟩
  | 121 => ⟨S100000, .i32⟩
  | 122 => ⟨S100000, .i32⟩
  | 123 => ⟨S100000, .i32⟩
  | 124 => ⟨S100000x1, .i32⟩
  | 125 => ⟨S100000x128, .f32⟩
  | 126 => ⟨S100000x128, .f32⟩
  | 127 => ⟨S_, .f32⟩
  | _ => ⟨S50000x128, .f32⟩

abbrev hbmTy0_1 (i : Nat) : BufTy := match i % 128 with
  | 0 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S128x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .f32⟩
  | .local _ .vmem, ⟨12, _⟩ => ⟨S10000x128, .f32⟩
  | .local _ .vmem, ⟨13, _⟩ => ⟨S1x128, .f32⟩
  | .local _ .vmem, ⟨14, _⟩ => ⟨S128x128, .f32⟩
  | .local _ .vmem, ⟨15, _⟩ => ⟨S10000x128, .bf16⟩
  | .local _ .vmem, ⟨16, _⟩ => ⟨S10000x128, .bf16⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x128, .bf16⟩
  | .local _ .vmem, ⟨21, _⟩ => ⟨S10000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_c_8 : Ref sig .tc := ⟨.hbm, 67, rfl⟩
abbrev main_v48 : Ref sig .tc := ⟨.hbm, 68, rfl⟩
abbrev main_v49 : Ref sig .tc := ⟨.hbm, 69, rfl⟩
abbrev main_c_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_10 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_c_12 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_13 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_c_14 : Ref sig .tc := ⟨.hbm, 106, rfl⟩
abbrev main_v81 : Ref sig .tc := ⟨.hbm, 107, rfl⟩
abbrev main_v82 : Ref sig .tc := ⟨.hbm, 108, rfl⟩
abbrev main_c_15 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_c_16 : Ref sig .tc := ⟨.hbm, 117, rfl⟩
abbrev main_v90 : Ref sig .tc := ⟨.hbm, 118, rfl⟩
abbrev main_v91 : Ref sig .tc := ⟨.hbm, 119, rfl⟩
abbrev main_c_17 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_18 : Ref sig .tc := ⟨.hbm, 127, rfl⟩
abbrev main_v98 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S10000x128_S10000x128 : S10000x128.ShapeCasts S10000x128
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x128_S100000_d1 : S100000x128.ReducesTo [1] S100000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S10000x128_S128x128_S10000x128_1_0_0_1_n_n_wf : DotDims.WF S10000x128 S128x128 S10000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S100000x1_S100000x128_1_0_n_n_0_1_1128_wf : GatherDims.WF S50000x128 S100000x1 S100000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S50000x128.size a
  hwx0_2 : ∀ i : grid0.Coords, EltTy.bits .bf16 = 32 ∨ (Rect.block (s := S50000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .bf16 = 32 ∨ (Rect.block (s := S50000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x128.size a ≤ S50000x128.size a
  hwx2_3 : ∀ i : grid2.Coords, EltTy.bits .bf16 = 32 ∨ (Rect.block (s := S50000x128) S10000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S50000x128.size a
  hwx3_2 : ∀ i : grid3.Coords, EltTy.bits .bf16 = 32 ∨ (Rect.block (s := S50000x128) S10000x128.size (cc3_transform_2 i) (hinb3_2 i)).WholeWords (EltTy.packing .bf16)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v61) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S10000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S2x800000 : Shape := ⟨2, ![2, 800000]⟩
abbrev S2x100000 : Shape := ⟨2, ![2, 100000]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x100000 : Shape := ⟨2, ![1, 100000]⟩
abbrev S100000 : Shape := ⟨1, ![100000]⟩
abbrev S100000x1 : Shape := ⟨2, ![100000, 1]⟩
abbrev S100000x128 : Shape := ⟨2, ![100000, 128]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S128x128, .f32⟩
  | 2 => ⟨S128, .f32⟩
  | 3 => ⟨S128x128, .f32⟩
  | 4 => ⟨S128, .f32⟩
  | 5 => ⟨S128x128, .f32⟩
  | 6 => ⟨S128, .f32⟩
  | 7 => ⟨S2x800000, .i32⟩
  | 8 => ⟨S2x100000, .i32⟩
  | 9 => ⟨S50000, .i32⟩
  | 10 => ⟨S1x800000, .i32⟩
  | 11 => ⟨S800000, .i32⟩
  | 12 => ⟨S850000, .i32⟩
  | 13 => ⟨S1x800000, .i32⟩
  | 14 => ⟨S800000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .f32⟩
  | 25 => ⟨S50000, .f32⟩
  | 26 => ⟨S_, .i32⟩
  | 27 => ⟨S850000, .i32⟩
  | 28 => ⟨S850000, .i1⟩
  | 29 => ⟨S_, .i32⟩
  | 30 => ⟨S850000, .i32⟩
  | 31 => ⟨S850000, .i32⟩
  | 32 => ⟨S850000, .i32⟩
  | 33 => ⟨S850000x1, .i32⟩
  | 34 => ⟨S850000, .f32⟩
  | 35 => ⟨S_, .i32⟩
  | 36 => ⟨S850000, .i32⟩
  | 37 => ⟨S850000, .i1⟩
  | 38 => ⟨S_, .i32⟩
  | 39 => ⟨S850000, .i32⟩
  | 40 => ⟨S850000, .i32⟩
  | 41 => ⟨S850000, .i32⟩
  | 42 => ⟨S850000x1, .i32⟩
  | 43 => ⟨S850000, .f32⟩
  | 44 => ⟨S850000, .f32⟩
  | 45 => ⟨S50000x128, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x128, .f32⟩
  | 55 => ⟨S850000x1, .f32⟩
  | 56 => ⟨S850000x128, .f32⟩
  | 57 => ⟨S850000x128, .f32⟩
  | 58 => ⟨S_, .f32⟩
  | 59 => ⟨S50000x128, .f32⟩
  | 60 => ⟨S850000x1, .i32⟩
  | 61 => ⟨S50000x128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S50000x128, .f32⟩
  | 69 => ⟨S_, .i32⟩
  | 70 => ⟨S850000, .i32⟩
  | 71 => ⟨S850000, .i1⟩
  | 72 => ⟨S_, .i32⟩
  | 73 => ⟨S850000, .i32⟩
  | 74 => ⟨S850000, .i32⟩
  | 75 => ⟨S850000, .i32⟩
  | 76 => ⟨S850000x1, .i32⟩
  | 77 => ⟨S850000x128, .f32⟩
  | 78 => ⟨S850000x1, .f32⟩
  | 79 => ⟨S850000x128, .f32⟩
  | 80 => ⟨S850000x128, .f32⟩
  | 81 => ⟨S_, .f32⟩
  | 82 => ⟨S50000x128, .f32⟩
  | 83 => ⟨S850000x1, .i32⟩
  | 84 => ⟨S50000x128, .f32⟩
  | 85 => ⟨S1x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S50000x128, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000x128, .f32⟩
  | 101 => ⟨S850000x1, .f32⟩
  | 102 => ⟨S850000x128, .f32⟩
  | 103 => ⟨S850000x128, .f32⟩
  | 104 => ⟨S_, .f32⟩
  | 105 => ⟨S50000x128, .f32⟩
  | 106 => ⟨S850000x1, .i32⟩
  | 107 => ⟨S50000x128, .f32⟩
  | 108 => ⟨S1x128, .f32⟩
  | 109 => ⟨S50000x128, .f32⟩
  | 110 => ⟨S50000x128, .f32⟩
  | 111 => ⟨S1x100000, .i32⟩
  | 112 => ⟨S100000, .i32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x128, .f32⟩
  | 122 => ⟨S1x100000, .i32⟩
  | 123 => ⟨S100000, .i32⟩
  | 124 => ⟨S_, .i32⟩
  | 125 => ⟨S100000, .i32⟩
  | 126 => ⟨S100000, .i1⟩
  | 127 => ⟨S_, .i32⟩
  | _ => ⟨S50000x128, .f32⟩

abbrev hbmTy0_1 (i : Nat) : BufTy := match i % 128 with
  | 0 => ⟨S100000, .i32⟩
  | 1 => ⟨S100000, .i32⟩
  | 2 => ⟨S100000, .i32⟩
  | 3 => ⟨S100000x1, .i32⟩
  | 4 => ⟨S100000x128, .f32⟩
  | 5 => ⟨S100000x128, .f32⟩
  | 6 => ⟨S_, .f32⟩
  | 7 => ⟨S100000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_10 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_c_11 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_14 : Ref sig .tc := ⟨.hbm, 113, rfl⟩
abbrev main_v84 : Ref sig .tc := ⟨.hbm, 114, rfl⟩
abbrev main_v85 : Ref sig .tc := ⟨.hbm, 115, rfl⟩
abbrev main_c_15 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_16 : Ref sig .tc := ⟨.hbm, 124, rfl⟩
abbrev main_v93 : Ref sig .tc := ⟨.hbm, 125, rfl⟩
abbrev main_v94 : Ref sig .tc := ⟨.hbm, 126, rfl⟩
abbrev main_c_17 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_cst_18 : Ref sig .tc := ⟨.hbm, 134, rfl⟩
abbrev main_v101 : Ref sig .tc := ⟨.hbm, 135, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x100000_S1x100000_0_0 : S2x100000.Slices ![0, 0] S1x100000
  shapeCasts_S1x100000_S100000 : S1x100000.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S2x100000_S1x100000_1_0 : S2x100000.Slices ![1, 0] S1x100000
  reducesTo_S100000x128_S100000_d1 : S100000x128.ReducesTo [1] S100000
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  gather_S50000x128_S100000x1_S100000x128_1_0_n_n_0_1_1128_wf : GatherDims.WF S50000x128 S100000x1 S100000x128 [1] [0] [] [0] [] 1 ![1, 128]

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf

class Facts : Prop extends Facts₀ where

variable [Facts]
-- ==== Proof.KRun.lean ====
/-
  The idealized kernel's run with its result buffer named.  The program is four TensorCore regions among five
  stretches of host operations; the buffer contents at every boundary are a fold from the launch memory
  (`Gen.W0` … `Gen.W9`), and at the end every unscoped buffer — the result buffer among them — holds the last
  boundary's contents.  So every weakly fair execution terminates with the result at `Gen.W9 m ρ c` read at the
  result's reference, and the nine argument arrays as launched.
-/
import proofs.«166472_j50886772523473_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v98) = W9 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v98 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)

end Cert.KernelIdeal.KRun

end
-- ==== Proof.Spec.lean ====
/-
  The network both programs compute, as one function of the argument arrays, on the extended reals.

  A graph of 50000 nodes with 128 features each and 800000 directed edges, to which one self-loop per node is
  appended: `src` and `dst` are the two rows of the edge list followed by 0, 1, …, 49999.  A node's degree counts the
  edges that end at it; `dinv` is the reciprocal square root of the degree (raised to at least one), and an edge's
  weight `norm` is `dinv` at its source times `dinv` at its destination (a negative index is first shifted up by
  50000).  One round of message passing, `agg`, gathers a feature matrix's rows at the edges' sources, scales each by
  its edge's weight and sums them into the rows of the edges' destinations.  A layer is the dense product of the
  features with a weight matrix, aggregated, plus the bias on every row; between layers the features are clamped
  below at zero.  After three layers the score of a labelled pair of nodes is the inner product of their two rows.
-/
import proofs.«166472_j50886772523473_2_alg».proof.ReferenceIdeal
import proofs.«166472_j50886772523473_2_alg».proof.Proof.Gen.ReferenceIdeal
import Idealize.ShloMosaic.PureOps.Ideal

noncomputable section

namespace Cert.Spec

open Cert.ReferenceIdeal Cert.ReferenceIdeal.Gen Idealize.ShloMosaic

/-- An integer array of a shape, and an exact (extended-real) array of a shape. -/
abbrev I32 (s : Shape) : Type := IVec s 32
abbrev F32 (s : Shape) : Type := FVec Ideal s .f32

/-- The edges' sources: row 0 of the edge list, then every node once. -/
def src (e : I32 S2x800000) : I32 S850000 :=
  concatenate S850000 0 [⟨S800000, (shapeCast _ (extractStridedSlice S1x800000 ![0, 0] e slices_S2x800000_S1x800000_0_0) shapeCasts_S1x800000_S800000)⟩, ⟨S50000, (iotaInDim S50000 32 0)⟩] concatenates_S800000_S50000_S850000_d0

/-- The edges' destinations: row 1 of the edge list, then every node once. -/
def dst (e : I32 S2x800000) : I32 S850000 :=
  concatenate S850000 0 [⟨S800000, (shapeCast _ (extractStridedSlice S1x800000 ![1, 0] e slices_S2x800000_S1x800000_1_0) shapeCasts_S1x800000_S800000)⟩, ⟨S50000, (iotaInDim S50000 32 0)⟩] concatenates_S800000_S50000_S850000_d0

/-- Node indices as a column of start indices, a negative one shifted up by the number of nodes. -/
def wrap (s : I32 S850000) : I32 S850000x1 :=
  broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s)

/-- The reciprocal square root of each node's in-degree (self-loop included), the degree raised to at least one. -/
def dinvOf (d : I32 S850000) : F32 S50000 :=
  Host.rsqrt (maximumf (Host.scatterAdd scatter_S50000_S850000x1_S850000_n_0_0_1 (broadcastInDim S50000 ![] bcast_S_S50000 (constant (F := Ideal) S_ .f32 0x00000000#32)) (broadcastInDim S850000x1 ![0] bcast_S850000_S850000x1_0 d) (broadcastInDim S850000 ![] bcast_S_S850000 (constant (F := Ideal) S_ .f32 0x3F800000#32))) (broadcastInDim S50000 ![] bcast_S_S50000 (constant (F := Ideal) S_ .f32 0x3F800000#32)))

/-- Each edge's weight: `dinv` at its source times `dinv` at its destination. -/
def normOf (s d : I32 S850000) : F32 S850000 :=
  mulf (Host.gather gather_S50000_S850000x1_S850000_n_0_n_n_0_1_1 (dinvOf d) (wrap s)) (Host.gather gather_S50000_S850000x1_S850000_n_0_n_n_0_1_1 (dinvOf d) (wrap d))

/-- One round of message passing over given sources, destinations and edge weights. -/
def aggOf (s d : I32 S850000) (n : F32 S850000) (h : F32 S50000x128) : F32 S50000x128 :=
  Host.scatterAdd scatter_S50000x128_S850000x1_S850000x128_1_0_0_1 (broadcastInDim S50000x128 ![] bcast_S_S50000x128 (constant (F := Ideal) S_ .f32 0x00000000#32)) (broadcastInDim S850000x1 ![0] bcast_S850000_S850000x1_0 d) (mulf (Host.gather gather_S50000x128_S850000x1_S850000x128_1_0_n_n_0_1_1128 h (broadcastInDim S850000x1 ![0] bcast_S850000_S850000x1_0 (select (cmpi .slt s (broadcastInDim S850000 ![] bcast_S_S850000 (constantI S_ 32 0#32))) (addi s (broadcastInDim S850000 ![] bcast_S_S850000 (constantI S_ 32 50000#32))) s))) (broadcastInDim S850000x128 ![0, 1] bcast_S850000x1_S850000x128_0_1 (broadcastInDim S850000x1 ![0] bcast_S850000_S850000x1_0 n)))

/-- The same over an edge list. -/
def agg (e : I32 S2x800000) (h : F32 S50000x128) : F32 S50000x128 := aggOf (src e) (dst e) (normOf (src e) (dst e)) h

/-- The dense product of the features with a weight matrix. -/
def dense (x : F32 S50000x128) (w : F32 S128x128) : F32 S50000x128 :=
  Host.dotGeneral dot_S50000x128_S128x128_S50000x128_1_0_0_1_n_n none x w

/-- A bias vector as a row. -/
def biasRow (b : F32 S128) : F32 S1x128 := broadcastInDim S1x128 ![1] bcast_S128_S1x128_1 b

/-- A bias row repeated on every node. -/
def rowsOf (r : F32 S1x128) : F32 S50000x128 := broadcastInDim S50000x128 ![0, 1] bcast_S1x128_S50000x128_0_1 r

/-- The features clamped below at zero. -/
def relu (x : F32 S50000x128) : F32 S50000x128 :=
  maximumf x (broadcastInDim S50000x128 ![] bcast_S_S50000x128 (constant (F := Ideal) S_ .f32 0x00000000#32))

/-- Bias, clamp, then the next layer's dense product. -/
def hidden (a : F32 S50000x128) (r : F32 S1x128) (w : F32 S128x128) : F32 S50000x128 :=
  dense (relu (addf a (rowsOf r))) w

/-- The last layer's output: the bias on every row. -/
def lastOf (a : F32 S50000x128) (r : F32 S1x128) : F32 S50000x128 := addf a (rowsOf r)

/-- A row of the labelled pairs as a column of start indices, a negative index shifted up by the number of nodes. -/
def pick0 (l : I32 S2x100000) : I32 S100000x1 :=
  broadcastInDim S100000x1 ![0] bcast_S100000_S100000x1_0 (select (cmpi .slt (shapeCast _ (extractStridedSlice S1x100000 ![0, 0] l slices_S2x100000_S1x100000_0_0) shapeCasts_S1x100000_S100000) (broadcastInDim S100000 ![] bcast_S_S100000 (constantI S_ 32 0#32))) (addi (shapeCast _ (extractStridedSlice S1x100000 ![0, 0] l slices_S2x100000_S1x100000_0_0) shapeCasts_S1x100000_S100000) (broadcastInDim S100000 ![] bcast_S_S100000 (constantI S_ 32 50000#32))) (shapeCast _ (extractStridedSlice S1x100000 ![0, 0] l slices_S2x100000_S1x100000_0_0) shapeCasts_S1x100000_S100000))

def pick1 (l : I32 S2x100000) : I32 S100000x1 :=
  broadcastInDim S100000x1 ![0] bcast_S100000_S100000x1_0 (select (cmpi .slt (shapeCast _ (extractStridedSlice S1x100000 ![1, 0] l slices_S2x100000_S1x100000_1_0) shapeCasts_S1x100000_S100000) (broadcastInDim S100000 ![] bcast_S_S100000 (constantI S_ 32 0#32))) (addi (shapeCast _ (extractStridedSlice S1x100000 ![1, 0] l slices_S2x100000_S1x100000_1_0) shapeCasts_S1x100000_S100000) (broadcastInDim S100000 ![] bcast_S_S100000 (constantI S_ 32 50000#32))) (shapeCast _ (extractStridedSlice S1x100000 ![1, 0] l slices_S2x100000_S1x100000_1_0) shapeCasts_S1x100000_S100000))

/-- The score of each labelled pair: the inner product of the two nodes' rows. -/
def decode (l : I32 S2x100000) (x : F32 S50000x128) : F32 S100000 :=
  Host.reduceAdd (mulf (Host.gather gather_S50000x128_S100000x1_S100000x128_1_0_n_n_0_1_1128 x (pick0 l)) (Host.gather gather_S50000x128_S100000x1_S100000x128_1_0_n_n_0_1_1128 x (pick1 l))) (constant (F := Ideal) S_ .f32 0x00000000#32) reducesTo_S100000x128_S100000_d1 h_S_

/-- The whole network. -/
def net (x : F32 S50000x128) (w1 : F32 S128x128) (b1 : F32 S128) (w2 : F32 S128x128) (b2 : F32 S128)
    (w3 : F32 S128x128) (b3 : F32 S128) (e : I32 S2x800000) (l : I32 S2x100000) : F32 S100000 :=
  decode l (lastOf (agg e (hidden (agg e (hidden (agg e (dense x w1)) (biasRow b1) w2)) (biasRow b2) w3)) (biasRow b3))

end Cert.Spec

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.R0.lean ====
/-
  Region 0: the first layer's dense product, block of rows by block of rows.
-/
import proofs.«166472_j50886772523473_2_alg».proof.Proof.Gen.KernelIdeal.Frame
import proofs.«166472_j50886772523473_2_alg».proof.Proof.Spec
import proofs.«166472_j50886772523473_2_alg».proof.Proof.LibPlainMatmul
import proofs.«166472_j50886772523473_2_alg».proof.Proof.LibPlainDot
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- The body's value at an entry of its block: the inner product of the block's row with the weight's column. -/
theorem pay_apply (x : Vec Ideal S10000x128 .f32) (w : Vec Ideal S128x128 .f32) (p : Fin 10000) (q : Fin 128) :
    k0_pay1 x w (ix2 p q) = ∑ k : Fin 128, x (ix2 p k) * w (ix2 k q) := by
  unfold k0_pay1
  exact (matmul_plain_zero_apply none (truncf .bf16 x bitsLt_bf16_f32) (truncf .bf16 w bitsLt_bf16_f32) p q)

variable (V : (c : Dev nD) → (b : Ref sig .tc) → Buf (Elt Ideal) ((c : Thread nD τ).loc b))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem flushed_eq (c : Dev nD) (t : Fin cfg0.N) :
    (dat0 V c).flushed 2 t = ((cfg0.win 2).blk t).view.read (Elt Ideal) (Cert.Spec.dense (V c main_arg0) (V c main_arg1)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  have ht : t.val < 5 := lt_of_lt_of_eq t.isLt N_0
  obtain ⟨e0, e1, e2, e3, e4, e5⟩ := idx_facts t
  show k0_pay1 (iblk0 V c 0 t) (iblk0 V c 1 t) (ix2 p q)
    = Cert.Spec.dense (V c main_arg0) (V c main_arg1) (((cfg0.win 2).blk t).view.emb (ix2 p q))
  have hemb : ((cfg0.win 2).blk t).view.emb (ix2 p q)
      = (ix2 (⟨t.val * 10000 + p.val, by omega⟩ : Fin 50000) q : S50000x128.Idx) := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  have hx : ∀ k : Fin 128, iblk0 V c 0 t (ix2 p k)
      = V c main_arg0 (ix2 (⟨t.val * 10000 + p.val, by omega⟩ : Fin 50000) k : S50000x128.Idx) := by
    intro k
    show V c main_arg0 (((cfg0.win 0).blk t).view.emb (ix2 p k)) = _
    refine congrArg _ ?_
    funext a; apply Fin.ext
    match a with
    | ⟨0, _⟩ => show win0_0.index t (0 : Fin 2) * 10000 + 1 * p.val = t.val * 10000 + p.val; omega
    | ⟨1, _⟩ => show win0_0.index t (1 : Fin 2) * 128 + 1 * k.val = k.val; omega
  have hw : ∀ k : Fin 128, iblk0 V c 1 t (ix2 k q) = V c main_arg1 (ix2 k q : S128x128.Idx) := by
    intro k
    show V c main_arg1 (((cfg0.win 1).blk t).view.emb (ix2 k q)) = _
    refine congrArg _ ?_
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  rw [pay_apply, hemb]
  refine (Finset.sum_congr rfl fun k _ => ?_).trans
    (hostDotGeneral_plain_apply none (V c main_arg0) (V c main_arg1) (⟨t.val * 10000 + p.val, by omega⟩ : Fin 50000) q).symm
  rw [hx k, hw k]

/-- An index of the array is in point `t`'s block iff each coordinate is in the block's range on its axis. -/
theorem mem_blk (t : Fin cfg0.N) (i : S50000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v32).slice (win0_2.rect t)).set ↔ _
  rw [View.set_slice_whole, Rect.mem_set_unit]
  exact Iff.rfl

/-- Every row of the array lies in the block of rows of the point numbered by the row's block. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, htv⟩ : ∃ t : Fin cfg0.N, t.val = (i 0).val / 10000 :=
    ⟨⟨(i 0).val / 10000, lt_of_lt_of_eq (by omega) N_0.symm⟩, rfl⟩
  have hrow := (idx_facts t)
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    omega
  | ⟨1, _⟩ =>
    show win0_2.index t (1 : Fin 2) * 128 ≤ (i 1).val ∧ (i 1).val < win0_2.index t (1 : Fin 2) * 128 + 128
    omega

/-- The array the region leaves: the dense product of the features with the first weight matrix. -/
theorem final (c : Dev nD) : (dat0 V c).arrAt 2 cfg0.N = Cert.Spec.dense (V c main_arg0) (V c main_arg1) :=
  (dat0 V c).arrAt_eq_of_cover 2 _ (fun t _ => flushed_eq V c t) cover

end Cert.KernelIdeal.Region0

end
-- ==== Proof.SpecAt.lean ====
/-
  The network's dense stages read at an entry.

  Row `a` of a dense product is the inner products of the operand's row `a` with the weight's columns; the operand of
  a hidden layer is, entry by entry, the aggregated feature plus the bias of its column, clamped below at zero; the
  last layer adds the bias of the column and nothing else.  A bias vector laid out as a row is the same row whether it
  is re-laid or repeated along a new leading axis of extent one.
-/
import proofs.«166472_j50886772523473_2_alg».proof.Proof.Spec
import proofs.«166472_j50886772523473_2_alg».proof.Proof.LibPlainDot
import Idealize.ShloMosaic.Lib.Pipeline.Value
import Idealize.ShloMosaic.Lib.ValueIdx
import Idealize.ShloMosaic.Lib.ValueLayout

noncomputable section

namespace Cert.Spec

open Cert.ReferenceIdeal Cert.ReferenceIdeal.Gen Idealize.ShloMosaic Idealize.ShloMosaic.ValueIdx
open scoped BigOperators

/-- Entry (a, b) of the dense product. -/
theorem dense_apply (x : F32 S50000x128) (w : F32 S128x128) (a : Fin 50000) (b : Fin 128) :
    dense x w (ix2 a b) = ∑ k : Fin 128, x (ix2 a k) * w (ix2 k b) :=
  hostDotGeneral_plain_apply none x w a b

/-- Entry (a, k) of a bias row repeated on every node: the row's entry k. -/
theorem rowsOf_apply (r : F32 S1x128) (a : Fin 50000) (k : Fin 128) : rowsOf r (ix2 a k) = r (ix2 (0 : Fin 1) k) := by
  unfold rowsOf
  refine broadcastInDim_apply _ bcast_S1x128_S50000x128_0_1 r (ix2 a k) (ix2 (0 : Fin 1) k) fun ax => ?_
  match ax with
  | ⟨0, _⟩ => rfl
  | ⟨1, _⟩ => rfl

/-- Entry (a, k) of a hidden layer's operand: the aggregated feature plus the bias of column k, clamped at zero. -/
theorem pre_apply (x : F32 S50000x128) (r : F32 S1x128) (a : Fin 50000) (k : Fin 128) :
    relu (addf x (rowsOf r)) (ix2 a k) = max (x (ix2 a k) + r (ix2 (0 : Fin 1) k)) (Ideal.ofBits .f32 0x00000000#32) := by
  show max (x (ix2 a k) + rowsOf r (ix2 a k)) _ = _
  rw [rowsOf_apply]
  rfl

/-- Entry (a, b) of a hidden layer. -/
theorem hidden_apply (x : F32 S50000x128) (r : F32 S1x128) (w : F32 S128x128) (a : Fin 50000) (b : Fin 128) :
    hidden x r w (ix2 a b)
      = ∑ k : Fin 128, max (x (ix2 a k) + r (ix2 (0 : Fin 1) k)) (Ideal.ofBits .f32 0x00000000#32) * w (ix2 k b) := by
  unfold hidden
  rw [dense_apply]
  exact Finset.sum_congr rfl fun k _ => by rw [pre_apply]

/-- Entry (a, b) of the last layer's output. -/
theorem lastOf_apply (x : F32 S50000x128) (r : F32 S1x128) (a : Fin 50000) (b : Fin 128) :
    lastOf x r (ix2 a b) = x (ix2 a b) + r (ix2 (0 : Fin 1) b) := by
  show x (ix2 a b) + rowsOf r (ix2 a b) = _
  rw [rowsOf_apply]

/-- A bias vector re-laid as a one-row matrix is the vector repeated along a new leading axis of extent one. -/
theorem cast_eq_biasRow (b : F32 S128) (h : S128.ShapeCasts S1x128) : shapeCast S1x128 b h = biasRow b := by
  funext i
  obtain ⟨u, k, rfl⟩ : ∃ (u : Fin 1) (k : Fin 128), i = ix2 u k := ⟨i 0, i 1, eq_ix2 i⟩
  rw [shapeCast_a_1a_apply]
  unfold biasRow
  refine (broadcastInDim_apply _ bcast_S128_S1x128_1 b (ix2 u k) (ix1 k) fun ax => ?_).symm
  match ax with
  | ⟨0, _⟩ => rfl

end Cert.Spec

end
-- ==== Proof.R1.lean ====
/-
  Region 1: the first hidden layer — bias, clamp at zero, dense product — block of rows by block of rows.

  At a grid point the body holds a block of 10000 rows of the aggregated features, the bias row and the whole weight
  matrix; entry (p, q) of what it stores is the sum over k of max(feature(p, k) + bias(k), 0) · weight(k, q), which is
  the network's hidden layer at the block's row p and column q.  The five blocks of rows fill the array.
-/
import proofs.«166472_j50886772523473_2_alg».proof.Proof.Gen.KernelIdeal.Frame
import proofs.«166472_j50886772523473_2_alg».proof.Proof.SpecAt
import proofs.«166472_j50886772523473_2_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- The body's value at an entry of its block. -/
theorem pay_apply (r : Vec Ideal S1x128 .f32) (x : Vec Ideal S10000x128 .f32) (w : Vec Ideal S128x128 .f32)
    (p : Fin 10000) (q : Fin 128) :
    k1_pay1 r x w (ix2 p q)
      = ∑ k : Fin 128, max (x (ix2 p k) + r (ix2 (0 : Fin 1) k)) (Ideal.ofBits .f32 0x00000000#32) * w (ix2 k q) := by
  unfold k1_pay1
  refine (matmul_plain_zero_apply none _ _ p q).trans (Finset.sum_congr rfl fun k _ => ?_)
  show max ((shapeCast S10000x128 x shapeCasts_S10000x128_S10000x128) (ix2 p k)
      + (broadcastTo S10000x128 (shapeCast S1x128 (shapeCast S1x128 r shapeCasts_S1x128_S1x128) shapeCasts_S1x128_S1x128)
          broadcasts_S1x128_S10000x128) (ix2 p k)) (Ideal.ofBits .f32 0x00000000#32) * w (ix2 k q) = _
  rw [shapeCast_self, shapeCast_self, shapeCast_self, broadcastTo_1b_ab_apply]

variable (V : (c : Dev nD) → (b : Ref sig .tc) → Buf (Elt Ideal) ((c : Thread nD τ).loc b))

/-- The printed index maps over the grid: the feature and output windows move down one block of rows per point, the
    bias row and the weight matrix stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the hidden layer of the arrays as the region finds them. -/
theorem flushed_eq (c : Dev nD) (t : Fin cfg1.N) :
    (dat1 V c).flushed 3 t = ((cfg1.win 3).blk t).view.read (Elt Ideal)
      (Cert.Spec.hidden (V c main_v46) (V c main_v29) (V c main_arg3)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  have ht : t.val < 5 := lt_of_lt_of_eq t.isLt N_1
  obtain ⟨e0, e1, e2, e3, e4, e5, e6, e7⟩ := idx_facts t
  show k1_pay1 (iblk1 V c 1 t) (iblk1 V c 0 t) (iblk1 V c 2 t) (ix2 p q)
    = Cert.Spec.hidden (V c main_v46) (V c main_v29) (V c main_arg3) (((cfg1.win 3).blk t).view.emb (ix2 p q))
  have hemb : ((cfg1.win 3).blk t).view.emb (ix2 p q)
      = (ix2 (⟨t.val * 10000 + p.val, by omega⟩ : Fin 50000) q : S50000x128.Idx) := by
    funext a; apply Fin.ext
    match a with
    | ⟨0, _⟩ => show win1_3.index t (0 : Fin 2) * 10000 + 1 * p.val = t.val * 10000 + p.val; omega
    | ⟨1, _⟩ => show win1_3.index t (1 : Fin 2) * 128 + 1 * q.val = q.val; omega
  have hx : ∀ k : Fin 128, iblk1 V c 0 t (ix2 p k)
      = V c main_v46 (ix2 (⟨t.val * 10000 + p.val, by omega⟩ : Fin 50000) k : S50000x128.Idx) := by
    intro k
    show V c main_v46 (((cfg1.win 0).blk t).view.emb (ix2 p k)) = _
    refine congrArg _ ?_
    funext a; apply Fin.ext
    match a with
    | ⟨0, _⟩ => show win1_0.index t (0 : Fin 2) * 10000 + 1 * p.val = t.val * 10000 + p.val; omega
    | ⟨1, _⟩ => show win1_0.index t (1 : Fin 2) * 128 + 1 * k.val = k.val; omega
  have hr : ∀ k : Fin 128, iblk1 V c 1 t (ix2 (0 : Fin 1) k) = V c main_v29 (ix2 (0 : Fin 1) k : S1x128.Idx) := by
    intro k
    show V c main_v29 (((cfg1.win 1).blk t).view.emb (ix2 (0 : Fin 1) k)) = _
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have hw : ∀ k : Fin 128, iblk1 V c 2 t (ix2 k q) = V c main_arg3 (ix2 k q : S128x128.Idx) := by
    intro k
    show V c main_arg3 (((cfg1.win 2).blk t).view.emb (ix2 k q)) = _
    refine congrArg _ ?_
    funext a; apply Fin.ext
    match a with
    | ⟨0, _⟩ => show win1_2.index t (0 : Fin 2) * 128 + 1 * k.val = k.val; omega
    | ⟨1, _⟩ => show win1_2.index t (1 : Fin 2) * 128 + 1 * q.val = q.val; omega
  rw [pay_apply, hemb]
  refine (Finset.sum_congr rfl fun k _ => ?_).trans
    (Cert.Spec.hidden_apply (V c main_v46) (V c main_v29) (V c main_arg3) (⟨t.val * 10000 + p.val, by omega⟩ : Fin 50000) q).symm
  rw [hx k, hr k, hw k]

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v47).slice (win1_3.rect t)).set ↔ _
  rw [View.set_slice_whole, Rect.mem_set_unit]
  exact Iff.rfl

/-- Every row of the array lies in the block of rows of the point numbered by the row's block. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, htv⟩ : ∃ t : Fin cfg1.N, t.val = (i 0).val / 10000 :=
    ⟨⟨(i 0).val / 10000, lt_of_lt_of_eq (by omega) N_1.symm⟩, rfl⟩
  have hrow := (idx_facts t)
  refine ⟨t, flush1_3 t, ?_⟩
  rw [mem_blk]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 128 ≤ (i 1).val ∧ (i 1).val < win1_3.index t (1 : Fin 2) * 128 + 128
    omega

/-- The array the region leaves: the hidden layer of the arrays as the region finds them. -/
theorem final (c : Dev nD) :
    (dat1 V c).arrAt 3 cfg1.N = Cert.Spec.hidden (V c main_v46) (V c main_v29) (V c main_arg3) :=
  (dat1 V c).arrAt_eq_of_cover 3 _ (fun t _ => flushed_eq V c t) cover

end Cert.KernelIdeal.Region1

end
-- ==== Proof.R2.lean ====
/-
  Region 2: the second hidden layer — bias, clamp at zero, dense product — block of rows by block of rows.

  At a grid point the body holds a block of 10000 rows of the aggregated features, the bias row and the whole weight
  matrix; entry (p, q) of what it stores is the sum over k of max(feature(p, k) + bias(k), 0) · weight(k, q), which is
  the network's hidden layer at the block's row p and column q.  The five blocks of rows fill the array.
-/
import proofs.«166472_j50886772523473_2_alg».proof.Proof.Gen.KernelIdeal.Frame
import proofs.«166472_j50886772523473_2_alg».proof.Proof.SpecAt
import proofs.«166472_j50886772523473_2_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- The body's value at an entry of its block. -/
theorem pay_apply (r : Vec Ideal S1x128 .f32) (x : Vec Ideal S10000x128 .f32) (w : Vec Ideal S128x128 .f32)
    (p : Fin 10000) (q : Fin 128) :
    k2_pay1 r x w (ix2 p q)
      = ∑ k : Fin 128, max (x (ix2 p k) + r (ix2 (0 : Fin 1) k)) (Ideal.ofBits .f32 0x00000000#32) * w (ix2 k q) := by
  unfold k2_pay1
  refine (matmul_plain_zero_apply none _ _ p q).trans (Finset.sum_congr rfl fun k _ => ?_)
  show max ((shapeCast S10000x128 x shapeCasts_S10000x128_S10000x128) (ix2 p k)
      + (broadcastTo S10000x128 (shapeCast S1x128 (shapeCast S1x128 r shapeCasts_S1x128_S1x128) shapeCasts_S1x128_S1x128)
          broadcasts_S1x128_S10000x128) (ix2 p k)) (Ideal.ofBits .f32 0x00000000#32) * w (ix2 k q) = _
  rw [shapeCast_self, shapeCast_self, shapeCast_self, broadcastTo_1b_ab_apply]

variable (V : (c : Dev nD) → (b : Ref sig .tc) → Buf (Elt Ideal) ((c : Thread nD τ).loc b))

/-- The printed index maps over the grid: the feature and output windows move down one block of rows per point, the
    bias row and the weight matrix stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the hidden layer of the arrays as the region finds them. -/
theorem flushed_eq (c : Dev nD) (t : Fin cfg2.N) :
    (dat2 V c).flushed 3 t = ((cfg2.win 3).blk t).view.read (Elt Ideal)
      (Cert.Spec.hidden (V c main_v61) (V c main_v30) (V c main_arg5)) := by
  show (cfg2.win 3).cut (grid2.coords t) ((dat2 V c).after 3 t) = _
  rw [after2_3]
  unfold out2_3
  rw [View.canon_unit_zero hz]
  simp only [View.ld_unit_zero (S := S10000x128) hz, View.ld_unit_zero (S := S128x128) hz, View.ld_unit_zero (S := S1x128) hz]
  funext j
  obtain ⟨p, q, rfl⟩ : ∃ (p : Fin 10000) (q : Fin 128), j = ix2 p q := ⟨j 0, j 1, eq_ix2 j⟩
  have ht : t.val < 5 := lt_of_lt_of_eq t.isLt N_2
  obtain ⟨e0, e1, e2, e3, e4, e5, e6, e7⟩ := idx_facts t
  show k2_pay1 (iblk2 V c 1 t) (iblk2 V c 0 t) (iblk2 V c 2 t) (ix2 p q)
    = Cert.Spec.hidden (V c main_v61) (V c main_v30) (V c main_arg5) (((cfg2.win 3).blk t).view.emb (ix2 p q))
  have hemb : ((cfg2.win 3).blk t).view.emb (ix2 p q)
      = (ix2 (⟨t.val * 10000 + p.val, by omega⟩ : Fin 50000) q : S50000x128.Idx) := by
    funext a; apply Fin.ext
    match a with
    | ⟨0, _⟩ => show win2_3.index t (0 : Fin 2) * 10000 + 1 * p.val = t.val * 10000 + p.val; omega
    | ⟨1, _⟩ => show win2_3.index t (1 : Fin 2) * 128 + 1 * q.val = q.val; omega
  have hx : ∀ k : Fin 128, iblk2 V c 0 t (ix2 p k)
      = V c main_v61 (ix2 (⟨t.val * 10000 + p.val, by omega⟩ : Fin 50000) k : S50000x128.Idx) := by
    intro k
    show V c main_v61 (((cfg2.win 0).blk t).view.emb (ix2 p k)) = _
    refine congrArg _ ?_
    funext a; apply Fin.ext
    match a with
    | ⟨0, _⟩ => show win2_0.index t (0 : Fin 2) * 10000 + 1 * p.val = t.val * 10000 + p.val; omega
    | ⟨1, _⟩ => show win2_0.index t (1 : Fin 2) * 128 + 1 * k.val = k.val; omega
  have hr : ∀ k : Fin 128, iblk2 V c 1 t (ix2 (0 : Fin 1) k) = V c main_v30 (ix2 (0 : Fin 1) k : S1x128.Idx) := by
    intro k
    show V c main_v30 (((cfg2.win 1).blk t).view.emb (ix2 (0 : Fin 1) k)) = _
    refine congrArg _ ?_
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have hw : ∀ k : Fin 128, iblk2 V c 2 t (ix2 k q) = V c main_arg5 (ix2 k q : S128x128.Idx) := by
    intro k
    show V c main_arg5 (((cfg2.win 2).blk t).view.emb (ix2 k q)) = _
    refine congrArg _ ?_
    funext a; apply Fin.ext
    match a with
    | ⟨0, _⟩ => show win2_2.index t (0 : Fin 2) * 128 + 1 * k.val = k.val; omega
    | ⟨1, _⟩ => show win2_2.index t (1 : Fin 2) * 128 + 1 * q.val = q.val; omega
  rw [pay_apply, hemb]
  refine (Finset.sum_congr rfl fun k _ => ?_).trans
    (Cert.Spec.hidden_apply (V c main_v61) (V c main_v30) (V c main_arg5) (⟨t.val * 10000 + p.val, by omega⟩ : Fin 50000) q).symm
  rw [hx k, hr k, hw k]

/-- An index of the array is in point `t`'s block iff each coordinate is in the block's range on its axis. -/
theorem mem_blk (t : Fin cfg2.N) (i : S50000x128.Idx) :
    i ∈ ((cfg2.win 3).blk t).view.set ↔ ∀ a : Fin 2, win2_3.index t a * S10000x128.size a ≤ (i a).val ∧ (i a).val < win2_3.index t a * S10000x128.size a + S10000x128.size a := by
  show i ∈ ((View.whole main_v62).slice (win2_3.rect t)).set ↔ _
  rw [View.set_slice_whole, Rect.mem_set_unit]
  exact Iff.rfl

/-- Every row of the array lies in the block of rows of the point numbered by the row's block. -/
theorem cover (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, htv⟩ : ∃ t : Fin cfg2.N, t.val = (i 0).val / 10000 :=
    ⟨⟨(i 0).val / 10000, lt_of_lt_of_eq (by omega) N_2.symm⟩, rfl⟩
  have hrow := (idx_facts t)
  refine ⟨t, flush2_3 t, ?_⟩
  rw [mem_blk]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 128 ≤ (i 1).val ∧ (i 1).val < win2_3.index t (1 : Fin 2) * 128 + 128
    omega

/-- The array the region leaves: the hidden layer of the arrays as the region finds them. -/
theorem final (c : Dev nD) :
    (dat2 V c).arrAt 3 cfg2.N = Cert.Spec.hidden (V c main_v61) (V c main_v30) (V c main_arg5) :=
  (dat2 V c).arrAt_eq_of_cover 3 _ (fun t _ => flushed_eq V c t) cover

end Cert.KernelIdeal.Region2

end
-- ==== Proof.R3.lean ====
/-
  Region 3: the last layer's bias, block of rows by block of rows.

  At a grid point the body holds a block of 10000 rows of the aggregated features and the bias row; entry (p, q) of
  what it stores is feature(p, q) + bias(q).  The five blocks of rows fill the array.
-/
import proofs.«166472_j50886772523473_2_alg».proof.Proof.Gen.KernelIdeal.Frame
import proofs.«166472_j50886772523473_2_alg».proof.Proof.SpecAt
import proofs.«166472_j50886772523473_2_alg».proof.Proof.LibPlainMatmul
import Idealize.ShloMosaic.Lib.Pipeline.Value
import Idealize.ShloMosaic.Lib.ValueIdx
import Idealize.ShloMosaic.Lib.ValueLayout

set_option maxRecDepth 16384

noncomputable section

namespace Cert.KernelIdeal.Region3

open Cert.KernelIdeal Cert.KernelIdeal.Gen
open Idealize.ShloMosaic Idealize.ShloMosaic.TcCoe Idealize.ShloMosaic.ValueIdx
open Idealize.SL.Sem
open scoped BigOperators

theorem hz : (![0, 0] : Fin 2 → Nat) = fun _ => 0 := funext fun a => by fin_cases a <;> rfl

/-- The body's value at an entry of its block. -/
theorem pay_apply (r : Vec Ideal S1x128 .f32) (x : Vec Ideal S10000x128 .f32) (p : Fin 10000) (q : Fin 128) :
    k3_pay1 r x (ix2 p q) = x (ix2 p q) + r (ix2 (0 : Fin 1) q) := by
  unfold k3_pay1
  show (shapeCast S10000x128 x shapeCasts_S10000x128_S10000x128) (ix2 p q)
      + (broadcastTo S10000x128 (shapeCast S1x128 (shapeCast S1x128 r shapeCasts_S1x128_S1x128) shapeCasts_S1x128_S1x128)
          broadcasts_S1x128_S10000x128) (ix2 p q) = _
  rw [shapeCast_self, shapeCast_self, shapeCast_self, broadcastTo_1b_ab_apply]

variable (V : (c : Dev nD) → (b : Ref sig .tc) → Buf (Elt Ideal) ((c : Thread nD τ).loc b))

/-- The printed index maps over the grid: the feature and output windows move down one block of rows per point, the
    bias row stays. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the last layer's output of the arrays as the region finds them. -/
theorem flushed_eq (c : Dev nD) (t : Fin cfg3.N) :
    (dat3 V c).flushed 2 t = ((cfg3.win 2).blk t).view.read (Elt Ideal)
      (Cert.Spec.lastOf (V c main_v76) (V c main_v31)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  have ht : t.val < 5 := lt_of_lt_of_eq t.isLt N_3
  obtain ⟨e0, e1, e2, e3, e4, e5⟩ := idx_facts t
  show k3_pay1 (iblk3 V c 1 t) (iblk3 V c 0 t) (ix2 p q)
    = Cert.Spec.lastOf (V c main_v76) (V c main_v31) (((cfg3.win 2).blk t).view.emb (ix2 p q))
  have hemb : ((cfg3.win 2).blk t).view.emb (ix2 p q)
      = (ix2 (⟨t.val * 10000 + p.val, by omega⟩ : Fin 50000) q : S50000x128.Idx) := by
    funext a; apply Fin.ext
    match a with
    | ⟨0, _⟩ => show win3_2.index t (0 : Fin 2) * 10000 + 1 * p.val = t.val * 10000 + p.val; omega
    | ⟨1, _⟩ => show win3_2.index t (1 : Fin 2) * 128 + 1 * q.val = q.val; omega
  have hx : iblk3 V c 0 t (ix2 p q)
      = V c main_v76 (ix2 (⟨t.val * 10000 + p.val, by omega⟩ : Fin 50000) q : S50000x128.Idx) := by
    show V c main_v76 (((cfg3.win 0).blk t).view.emb (ix2 p q)) = _
    refine congrArg _ ?_
    funext a; apply Fin.ext
    match a with
    | ⟨0, _⟩ => show win3_0.index t (0 : Fin 2) * 10000 + 1 * p.val = t.val * 10000 + p.val; omega
    | ⟨1, _⟩ => show win3_0.index t (1 : Fin 2) * 128 + 1 * q.val = q.val; omega
  have hr : iblk3 V c 1 t (ix2 (0 : Fin 1) q) = V c main_v31 (ix2 (0 : Fin 1) q : S1x128.Idx) := by
    show V c main_v31 (((cfg3.win 1).blk t).view.emb (ix2 (0 : Fin 1) q)) = _
    refine congrArg _ ?_
    funext a; apply Fin.ext
    match a with
    | ⟨0, _⟩ => show win3_1.index t (0 : Fin 2) * 1 + 1 * 0 = 0; omega
    | ⟨1, _⟩ => show win3_1.index t (1 : Fin 2) * 128 + 1 * q.val = q.val; omega
  rw [pay_apply, hemb, hx, hr]
  exact (Cert.Spec.lastOf_apply (V c main_v76) (V c main_v31) (⟨t.val * 10000 + p.val, by omega⟩ : Fin 50000) q).symm

/-- An index of the array is in point `t`'s block iff each coordinate is in the block's range on its axis. -/
theorem mem_blk (t : Fin cfg3.N) (i : S50000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v77).slice (win3_2.rect t)).set ↔ _
  rw [View.set_slice_whole, Rect.mem_set_unit]
  exact Iff.rfl

/-- Every row of the array lies in the block of rows of the point numbered by the row's block. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, htv⟩ : ∃ t : Fin cfg3.N, t.val = (i 0).val / 10000 :=
    ⟨⟨(i 0).val / 10000, lt_of_lt_of_eq (by omega) N_3.symm⟩, rfl⟩
  have hrow := (idx_facts t)
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 128 ≤ (i 1).val ∧ (i 1).val < win3_2.index t (1 : Fin 2) * 128 + 128
    omega

/-- The array the region leaves: the last layer's output of the arrays as the region finds them. -/
theorem final (c : Dev nD) :
    (dat3 V c).arrAt 2 cfg3.N = Cert.Spec.lastOf (V c main_v76) (V c main_v31) :=
  (dat3 V c).arrAt_eq_of_cover 2 _ (fun t _ => flushed_eq V c t) cover

end Cert.KernelIdeal.Region3

end
-- ==== Proof.Stages.lean ====
/-
  The host operations between the regions, read stretch by stretch, from any buffer contents.

  Before the first region the program builds the edges' sources, destinations and weights and lays the three bias
  vectors out as rows; after each of the first three regions it aggregates that region's output over the edges;
  after the last it scores the labelled pairs.  A buffer a stretch does not write keeps its contents.
-/
import proofs.«166472_j50886772523473_2_alg».proof.Proof.Gen.KernelIdeal.Launch
import proofs.«166472_j50886772523473_2_alg».proof.Proof.SpecAt
import Idealize.ShloMosaic.Lib.StableHlo.Run

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem

/-! ## Before the first region -/

theorem s0_src (W : Valuation τ sig (Elt Ideal)) :
    StableHlo.after (hostOps0 (F := Ideal)) W (Proc.devRef .tc main_v3) = Cert.Spec.src (W (Proc.devRef .tc main_arg7)) := by
  after_results_simp <;> rfl

theorem s0_dst (W : Valuation τ sig (Elt Ideal)) :
    StableHlo.after (hostOps0 (F := Ideal)) W (Proc.devRef .tc main_v6) = Cert.Spec.dst (W (Proc.devRef .tc main_arg7)) := by
  after_results_simp <;> rfl

theorem s0_norm (W : Valuation τ sig (Elt Ideal)) :
    StableHlo.after (hostOps0 (F := Ideal)) W (Proc.devRef .tc main_v28)
      = Cert.Spec.normOf (Cert.Spec.src (W (Proc.devRef .tc main_arg7))) (Cert.Spec.dst (W (Proc.devRef .tc main_arg7))) := by
  after_results_simp <;> rfl

theorem s0_row1 (W : Valuation τ sig (Elt Ideal)) :
    StableHlo.after (hostOps0 (F := Ideal)) W (Proc.devRef .tc main_v29) = Cert.Spec.biasRow (W (Proc.devRef .tc main_arg2)) := by
  refine Eq.trans ?_ (Cert.Spec.cast_eq_biasRow (W (Proc.devRef .tc main_arg2)) shapeCasts_S128_S1x128)
  after_results_simp <;> rfl

theorem s0_row2 (W : Valuation τ sig (Elt Ideal)) :
    StableHlo.after (hostOps0 (F := Ideal)) W (Proc.devRef .tc main_v30) = Cert.Spec.biasRow (W (Proc.devRef .tc main_arg4)) := by
  refine Eq.trans ?_ (Cert.Spec.cast_eq_biasRow (W (Proc.devRef .tc main_arg4)) shapeCasts_S128_S1x128)
  after_results_simp <;> rfl

theorem s0_row3 (W : Valuation τ sig (Elt Ideal)) :
    StableHlo.after (hostOps0 (F := Ideal)) W (Proc.devRef .tc main_v31) = Cert.Spec.biasRow (W (Proc.devRef .tc main_arg6)) := by
  refine Eq.trans ?_ (Cert.Spec.cast_eq_biasRow (W (Proc.devRef .tc main_arg6)) shapeCasts_S128_S1x128)
  after_results_simp <;> rfl

/-! ## Between the regions: one round of message passing -/

theorem s1_agg (W : Valuation τ sig (Elt Ideal)) :
    StableHlo.after (hostOps1 (F := Ideal)) W (Proc.devRef .tc main_v46)
      = Cert.Spec.aggOf (W (Proc.devRef .tc main_v3)) (W (Proc.devRef .tc main_v6)) (W (Proc.devRef .tc main_v28)) (W (Proc.devRef .tc main_v32)) := by
  after_results_simp <;> rfl

theorem s2_agg (W : Valuation τ sig (Elt Ideal)) :
    StableHlo.after (hostOps2 (F := Ideal)) W (Proc.devRef .tc main_v61)
      = Cert.Spec.aggOf (W (Proc.devRef .tc main_v3)) (W (Proc.devRef .tc main_v6)) (W (Proc.devRef .tc main_v28)) (W (Proc.devRef .tc main_v47)) := by
  after_results_simp <;> rfl

theorem s3_agg (W : Valuation τ sig (Elt Ideal)) :
    StableHlo.after (hostOps3 (F := Ideal)) W (Proc.devRef .tc main_v76)
      = Cert.Spec.aggOf (W (Proc.devRef .tc main_v3)) (W (Proc.devRef .tc main_v6)) (W (Proc.devRef .tc main_v28)) (W (Proc.devRef .tc main_v62)) := by
  after_results_simp <;> rfl

/-! ## After the last region: the scores -/

theorem s4_decode (W : Valuation τ sig (Elt Ideal)) :
    StableHlo.after (hostOps4 (F := Ideal)) W (Proc.devRef .tc main_v98)
      = Cert.Spec.decode (W (Proc.devRef .tc main_arg8)) (W (Proc.devRef .tc main_v77)) := by
  after_results_simp <;> rfl

/-! ## What a stretch does not write -/

theorem keep0_main_arg0 (W : Valuation τ sig (Elt Ideal)) :
    StableHlo.after (hostOps0 (F := Ideal)) W (Proc.devRef .tc main_arg0) = W (Proc.devRef .tc main_arg0) := by
  after_results_simp <;> rfl
theorem keep0_main_arg1 (W : Valuation τ sig (Elt Ideal)) :
    StableHlo.after (hostOps0 (F := Ideal)) W (Proc.devRef .tc main_arg1) = W (Proc.devRef .tc main_arg1) := by
  after_results_simp <;> rfl
theorem keep0_main_arg3 (W : Valuation τ sig (Elt Ideal)) :
    StableHlo.after (hostOps0 (F := Ideal)) W (Proc.devRef .tc main_arg3) = W (Proc.devRef .tc main_arg3) := by
  after_results_simp <;> rfl
theorem keep0_main_arg5 (W : Valuation τ sig (Elt Ideal)) :
    StableHlo.after (hostOps0 (F := Ideal)) W (Proc.devRef .tc main_arg5) = W (Proc.devRef .tc main_arg5) := by
  after_results_simp <;> rfl
theorem keep0_main_arg8 (W : Valuation τ sig (Elt Ideal)) :
    StableHlo.after (hostOps0 (F := Ideal)) W (Proc.devRef .tc main_arg8) = W (Proc.devRef .tc main_arg8) := by
  after_results_simp <;> rfl
theorem keep1_main_v3 (W : Valuation τ sig (Elt Ideal)) :
    StableHlo.after (hostOps1 (F := Ideal)) W (Proc.devRef .tc main_v3) = W (Proc.devRef .tc main_v3) := by
  after_results_simp <;> rfl
theorem keep1_main_v6 (W : Valuation τ sig (Elt Ideal)) :
    StableHlo.after (hostOps1 (F := Ideal)) W (Proc.devRef .tc main_v6) = W (Proc.devRef .tc main_v6) := by
  after_results_simp <;> rfl
theorem keep1_main_v28 (W : Valuation τ sig (Elt Ideal)) :
    StableHlo.after (hostOps1 (F := Ideal)) W (Proc.devRef .tc main_v28) = W (Proc.devRef .tc main_v28) := by
  after_results_simp <;> rfl
theorem keep1_main_v29 (W : Valuation τ sig (Elt Ideal)) :
    StableHlo.after (hostOps1 (F := Ideal)) W (Proc.devRef .tc main_v29) = W (Proc.devRef .tc main_v29) := by
  after_results_simp <;> rfl
theorem keep1_main_v30 (W : Valuation τ sig (Elt Ideal)) :
    StableHlo.after (hostOps1 (F := Ideal)) W (Proc.devRef .tc main_v30) = W (Proc.devRef .tc main_v30) := by
  after_results_simp <;> rfl
theorem keep1_main_v31 (W : Valuation τ sig (Elt Ideal)) :
    StableHlo.after (hostOps1 (F := Ideal)) W (Proc.devRef .tc main_v31) = W (Proc.devRef .tc main_v31) := by
  after_results_simp <;> rfl
theorem keep1_main_arg3 (W : Valuation τ sig (Elt Ideal)) :
    StableHlo.after (hostOps1 (F := Ideal)) W (Proc.devRef .tc main_arg3) = W (Proc.devRef .tc main_arg3) := by
  after_results_simp <;> rfl
theorem keep1_main_arg5 (W : Valuation τ sig (Elt Ideal)) :
    StableHlo.after (hostOps1 (F := Ideal)) W (Proc.devRef .tc main_arg5) = W (Proc.devRef .tc main_arg5) := by
  after_results_simp <;> rfl
theorem keep1_main_arg8 (W : Valuation τ sig (Elt Ideal)) :
    StableHlo.after (hostOps1 (F := Ideal)) W (Proc.devRef .tc main_arg8) = W (Proc.devRef .tc main_arg8) := by
  after_results_simp <;> rfl
theorem keep2_main_v3 (W : Valuation τ sig (Elt Ideal)) :
    StableHlo.after (hostOps2 (F := Ideal)) W (Proc.devRef .tc main_v3) = W (Proc.devRef .tc main_v3) := by
  after_results_simp <;> rfl
theorem keep2_main_v6 (W : Valuation τ sig (Elt Ideal)) :
    StableHlo.after (hostOps2 (F := Ideal)) W (Proc.devRef .tc main_v6) = W (Proc.devRef .tc main_v6) := by
  after_results_simp <;> rfl
theorem keep2_main_v28 (W : Valuation τ sig (Elt Ideal)) :
    StableHlo.after (hostOps2 (F := Ideal)) W (Proc.devRef .tc main_v28) = W (Proc.devRef .tc main_v28) := by
  after_results_simp <;> rfl
theorem keep2_main_v30 (W : Valuation τ sig (Elt Ideal)) :
    StableHlo.after (hostOps2 (F := Ideal)) W (Proc.devRef .tc main_v30) = W (Proc.devRef .tc main_v30) := by
  after_results_simp <;> rfl
theorem keep2_main_v31 (W : Valuation τ sig (Elt Ideal)) :
    StableHlo.after (hostOps2 (F := Ideal)) W (Proc.devRef .tc main_v31) = W (Proc.devRef .tc main_v31) := by
  after_results_simp <;> rfl
theorem keep2_main_arg5 (W : Valuation τ sig (Elt Ideal)) :
    StableHlo.after (hostOps2 (F := Ideal)) W (Proc.devRef .tc main_arg5) = W (Proc.devRef .tc main_arg5) := by
  after_results_simp <;> rfl
theorem keep2_main_arg8 (W : Valuation τ sig (Elt Ideal)) :
    StableHlo.after (hostOps2 (F := Ideal)) W (Proc.devRef .tc main_arg8) = W (Proc.devRef .tc main_arg8) := by
  after_results_simp <;> rfl
theorem keep3_main_v3 (W : Valuation τ sig (Elt Ideal)) :
    StableHlo.after (hostOps3 (F := Ideal)) W (Proc.devRef .tc main_v3) = W (Proc.devRef .tc main_v3) := by
  after_results_simp <;> rfl
theorem keep3_main_v6 (W : Valuation τ sig (Elt Ideal)) :
    StableHlo.after (hostOps3 (F := Ideal)) W (Proc.devRef .tc main_v6) = W (Proc.devRef .tc main_v6) := by
  after_results_simp <;> rfl
theorem keep3_main_v28 (W : Valuation τ sig (Elt Ideal)) :
    StableHlo.after (hostOps3 (F := Ideal)) W (Proc.devRef .tc main_v28) = W (Proc.devRef .tc main_v28) := by
  after_results_simp <;> rfl
theorem keep3_main_v31 (W : Valuation τ sig (Elt Ideal)) :
    StableHlo.after (hostOps3 (F := Ideal)) W (Proc.devRef .tc main_v31) = W (Proc.devRef .tc main_v31) := by
  after_results_simp <;> rfl
theorem keep3_main_arg8 (W : Valuation τ sig (Elt Ideal)) :
    StableHlo.after (hostOps3 (F := Ideal)) W (Proc.devRef .tc main_arg8) = W (Proc.devRef .tc main_arg8) := by
  after_results_simp <;> rfl

end Cert.KernelIdeal.Stages

end
-- ==== Proof.Chain.lean ====
/-
  The idealized kernel's result is the network of the argument arrays.

  The buffer contents at the boundaries between the program's nine segments are read one after the other: a stretch of
  host operations by its composed term, a region by the whole array its blocks of rows fill, and every buffer a segment
  does not write by what it held before.  The sources, destinations, edge weights and bias rows built before the first
  region are carried to where they are read; each region's output is the dense stage the network has there.
-/
import proofs.«166472_j50886772523473_2_alg».proof.Proof.Gen.KernelIdeal.Frame
import proofs.«166472_j50886772523473_2_alg».proof.Proof.R0
import proofs.«166472_j50886772523473_2_alg».proof.Proof.R1
import proofs.«166472_j50886772523473_2_alg».proof.Proof.R2
import proofs.«166472_j50886772523473_2_alg».proof.Proof.R3
import proofs.«166472_j50886772523473_2_alg».proof.Proof.Stages

set_option maxRecDepth 16384

noncomputable section

namespace Cert.KernelIdeal.Chain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The last boundary's contents at the result buffer: the network of the launch contents of the argument arrays. -/
theorem result (c : Dev nD) :
    W9 m ρ c (Proc.devRef .tc main_v98) = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have b1_main_v3 : W1 m ρ c (Proc.devRef .tc main_v3) = (Cert.Spec.src (m ((c.tc : Thread nD τ).loc main_arg7))) := Stages.s0_src (W0 m ρ c)
  have b1_main_v6 : W1 m ρ c (Proc.devRef .tc main_v6) = (Cert.Spec.dst (m ((c.tc : Thread nD τ).loc main_arg7))) := Stages.s0_dst (W0 m ρ c)
  have b1_main_v28 : W1 m ρ c (Proc.devRef .tc main_v28) = (Cert.Spec.normOf (Cert.Spec.src (m ((c.tc : Thread nD τ).loc main_arg7))) (Cert.Spec.dst (m ((c.tc : Thread nD τ).loc main_arg7)))) := Stages.s0_norm (W0 m ρ c)
  have b1_main_v29 : W1 m ρ c (Proc.devRef .tc main_v29) = (Cert.Spec.biasRow (m ((c.tc : Thread nD τ).loc main_arg2))) := Stages.s0_row1 (W0 m ρ c)
  have b1_main_v30 : W1 m ρ c (Proc.devRef .tc main_v30) = (Cert.Spec.biasRow (m ((c.tc : Thread nD τ).loc main_arg4))) := Stages.s0_row2 (W0 m ρ c)
  have b1_main_v31 : W1 m ρ c (Proc.devRef .tc main_v31) = (Cert.Spec.biasRow (m ((c.tc : Thread nD τ).loc main_arg6))) := Stages.s0_row3 (W0 m ρ c)
  have b1_main_arg0 : W1 m ρ c (Proc.devRef .tc main_arg0) = (m ((c.tc : Thread nD τ).loc main_arg0)) := Stages.keep0_main_arg0 (W0 m ρ c)
  have b1_main_arg1 : W1 m ρ c (Proc.devRef .tc main_arg1) = (m ((c.tc : Thread nD τ).loc main_arg1)) := Stages.keep0_main_arg1 (W0 m ρ c)
  have b1_main_arg3 : W1 m ρ c (Proc.devRef .tc main_arg3) = (m ((c.tc : Thread nD τ).loc main_arg3)) := Stages.keep0_main_arg3 (W0 m ρ c)
  have b1_main_arg5 : W1 m ρ c (Proc.devRef .tc main_arg5) = (m ((c.tc : Thread nD τ).loc main_arg5)) := Stages.keep0_main_arg5 (W0 m ρ c)
  have b1_main_arg8 : W1 m ρ c (Proc.devRef .tc main_arg8) = (m ((c.tc : Thread nD τ).loc main_arg8)) := Stages.keep0_main_arg8 (W0 m ρ c)
  -- the first region: the dense product of the features with the first weight matrix
  have b2_main_v32 : W2 m ρ c (Proc.devRef .tc main_v32) = (Cert.Spec.dense (m ((c.tc : Thread nD τ).loc main_arg0)) (m ((c.tc : Thread nD τ).loc main_arg1))) := by
    refine ((W2_arr m ρ c 2).trans (Region0.final (V1 m ρ) c)).trans ?_
    show Cert.Spec.dense (W1 m ρ c (Proc.devRef .tc main_arg0)) (W1 m ρ c (Proc.devRef .tc main_arg1)) = _
    rw [b1_main_arg0, b1_main_arg1]
  have b2_main_v3 : W2 m ρ c (Proc.devRef .tc main_v3) = (Cert.Spec.src (m ((c.tc : Thread nD τ).loc main_arg7))) := (W2_of_ne m ρ c main_v3 (by decide)).trans b1_main_v3
  have b2_main_v6 : W2 m ρ c (Proc.devRef .tc main_v6) = (Cert.Spec.dst (m ((c.tc : Thread nD τ).loc main_arg7))) := (W2_of_ne m ρ c main_v6 (by decide)).trans b1_main_v6
  have b2_main_v28 : W2 m ρ c (Proc.devRef .tc main_v28) = (Cert.Spec.normOf (Cert.Spec.src (m ((c.tc : Thread nD τ).loc main_arg7))) (Cert.Spec.dst (m ((c.tc : Thread nD τ).loc main_arg7)))) := (W2_of_ne m ρ c main_v28 (by decide)).trans b1_main_v28
  have b2_main_v29 : W2 m ρ c (Proc.devRef .tc main_v29) = (Cert.Spec.biasRow (m ((c.tc : Thread nD τ).loc main_arg2))) := (W2_of_ne m ρ c main_v29 (by decide)).trans b1_main_v29
  have b2_main_v30 : W2 m ρ c (Proc.devRef .tc main_v30) = (Cert.Spec.biasRow (m ((c.tc : Thread nD τ).loc main_arg4))) := (W2_of_ne m ρ c main_v30 (by decide)).trans b1_main_v30
  have b2_main_v31 : W2 m ρ c (Proc.devRef .tc main_v31) = (Cert.Spec.biasRow (m ((c.tc : Thread nD τ).loc main_arg6))) := (W2_of_ne m ρ c main_v31 (by decide)).trans b1_main_v31
  have b2_main_arg3 : W2 m ρ c (Proc.devRef .tc main_arg3) = (m ((c.tc : Thread nD τ).loc main_arg3)) := (W2_of_ne m ρ c main_arg3 (by decide)).trans b1_main_arg3
  have b2_main_arg5 : W2 m ρ c (Proc.devRef .tc main_arg5) = (m ((c.tc : Thread nD τ).loc main_arg5)) := (W2_of_ne m ρ c main_arg5 (by decide)).trans b1_main_arg5
  have b2_main_arg8 : W2 m ρ c (Proc.devRef .tc main_arg8) = (m ((c.tc : Thread nD τ).loc main_arg8)) := (W2_of_ne m ρ c main_arg8 (by decide)).trans b1_main_arg8
  -- one round of message passing over the first layer's product
  have b3_main_v46 : W3 m ρ c (Proc.devRef .tc main_v46) = (Cert.Spec.agg (m ((c.tc : Thread nD τ).loc main_arg7)) (Cert.Spec.dense (m ((c.tc : Thread nD τ).loc main_arg0)) (m ((c.tc : Thread nD τ).loc main_arg1)))) := by
    refine (Stages.s1_agg (W2 m ρ c)).trans ?_
    rw [b2_main_v3, b2_main_v6, b2_main_v28, b2_main_v32]
    rfl
  have b3_main_v3 : W3 m ρ c (Proc.devRef .tc main_v3) = (Cert.Spec.src (m ((c.tc : Thread nD τ).loc main_arg7))) := (Stages.keep1_main_v3 (W2 m ρ c)).trans b2_main_v3
  have b3_main_v6 : W3 m ρ c (Proc.devRef .tc main_v6) = (Cert.Spec.dst (m ((c.tc : Thread nD τ).loc main_arg7))) := (Stages.keep1_main_v6 (W2 m ρ c)).trans b2_main_v6
  have b3_main_v28 : W3 m ρ c (Proc.devRef .tc main_v28) = (Cert.Spec.normOf (Cert.Spec.src (m ((c.tc : Thread nD τ).loc main_arg7))) (Cert.Spec.dst (m ((c.tc : Thread nD τ).loc main_arg7)))) := (Stages.keep1_main_v28 (W2 m ρ c)).trans b2_main_v28
  have b3_main_v29 : W3 m ρ c (Proc.devRef .tc main_v29) = (Cert.Spec.biasRow (m ((c.tc : Thread nD τ).loc main_arg2))) := (Stages.keep1_main_v29 (W2 m ρ c)).trans b2_main_v29
  have b3_main_v30 : W3 m ρ c (Proc.devRef .tc main_v30) = (Cert.Spec.biasRow (m ((c.tc : Thread nD τ).loc main_arg4))) := (Stages.keep1_main_v30 (W2 m ρ c)).trans b2_main_v30
  have b3_main_v31 : W3 m ρ c (Proc.devRef .tc main_v31) = (Cert.Spec.biasRow (m ((c.tc : Thread nD τ).loc main_arg6))) := (Stages.keep1_main_v31 (W2 m ρ c)).trans b2_main_v31
  have b3_main_arg3 : W3 m ρ c (Proc.devRef .tc main_arg3) = (m ((c.tc : Thread nD τ).loc main_arg3)) := (Stages.keep1_main_arg3 (W2 m ρ c)).trans b2_main_arg3
  have b3_main_arg5 : W3 m ρ c (Proc.devRef .tc main_arg5) = (m ((c.tc : Thread nD τ).loc main_arg5)) := (Stages.keep1_main_arg5 (W2 m ρ c)).trans b2_main_arg5
  have b3_main_arg8 : W3 m ρ c (Proc.devRef .tc main_arg8) = (m ((c.tc : Thread nD τ).loc main_arg8)) := (Stages.keep1_main_arg8 (W2 m ρ c)).trans b2_main_arg8
  -- the second region: bias, clamp, the dense product with the second weight matrix
  have b4_main_v47 : W4 m ρ c (Proc.devRef .tc main_v47) = (Cert.Spec.hidden (Cert.Spec.agg (m ((c.tc : Thread nD τ).loc main_arg7)) (Cert.Spec.dense (m ((c.tc : Thread nD τ).loc main_arg0)) (m ((c.tc : Thread nD τ).loc main_arg1)))) (Cert.Spec.biasRow (m ((c.tc : Thread nD τ).loc main_arg2))) (m ((c.tc : Thread nD τ).loc main_arg3))) := by
    refine ((W4_arr m ρ c 3).trans (Region1.final (V3 m ρ) c)).trans ?_
    show Cert.Spec.hidden (W3 m ρ c (Proc.devRef .tc main_v46)) (W3 m ρ c (Proc.devRef .tc main_v29)) (W3 m ρ c (Proc.devRef .tc main_arg3)) = _
    rw [b3_main_v46, b3_main_v29, b3_main_arg3]
  have b4_main_v3 : W4 m ρ c (Proc.devRef .tc main_v3) = (Cert.Spec.src (m ((c.tc : Thread nD τ).loc main_arg7))) := (W4_of_ne m ρ c main_v3 (by decide)).trans b3_main_v3
  have b4_main_v6 : W4 m ρ c (Proc.devRef .tc main_v6) = (Cert.Spec.dst (m ((c.tc : Thread nD τ).loc main_arg7))) := (W4_of_ne m ρ c main_v6 (by decide)).trans b3_main_v6
  have b4_main_v28 : W4 m ρ c (Proc.devRef .tc main_v28) = (Cert.Spec.normOf (Cert.Spec.src (m ((c.tc : Thread nD τ).loc main_arg7))) (Cert.Spec.dst (m ((c.tc : Thread nD τ).loc main_arg7)))) := (W4_of_ne m ρ c main_v28 (by decide)).trans b3_main_v28
  have b4_main_v30 : W4 m ρ c (Proc.devRef .tc main_v30) = (Cert.Spec.biasRow (m ((c.tc : Thread nD τ).loc main_arg4))) := (W4_of_ne m ρ c main_v30 (by decide)).trans b3_main_v30
  have b4_main_v31 : W4 m ρ c (Proc.devRef .tc main_v31) = (Cert.Spec.biasRow (m ((c.tc : Thread nD τ).loc main_arg6))) := (W4_of_ne m ρ c main_v31 (by decide)).trans b3_main_v31
  have b4_main_arg5 : W4 m ρ c (Proc.devRef .tc main_arg5) = (m ((c.tc : Thread nD τ).loc main_arg5)) := (W4_of_ne m ρ c main_arg5 (by decide)).trans b3_main_arg5
  have b4_main_arg8 : W4 m ρ c (Proc.devRef .tc main_arg8) = (m ((c.tc : Thread nD τ).loc main_arg8)) := (W4_of_ne m ρ c main_arg8 (by decide)).trans b3_main_arg8
  have b5_main_v61 : W5 m ρ c (Proc.devRef .tc main_v61) = (Cert.Spec.agg (m ((c.tc : Thread nD τ).loc main_arg7)) (Cert.Spec.hidden (Cert.Spec.agg (m ((c.tc : Thread nD τ).loc main_arg7)) (Cert.Spec.dense (m ((c.tc : Thread nD τ).loc main_arg0)) (m ((c.tc : Thread nD τ).loc main_arg1)))) (Cert.Spec.biasRow (m ((c.tc : Thread nD τ).loc main_arg2))) (m ((c.tc : Thread nD τ).loc main_arg3)))) := by
    refine (Stages.s2_agg (W4 m ρ c)).trans ?_
    rw [b4_main_v3, b4_main_v6, b4_main_v28, b4_main_v47]
    rfl
  have b5_main_v3 : W5 m ρ c (Proc.devRef .tc main_v3) = (Cert.Spec.src (m ((c.tc : Thread nD τ).loc main_arg7))) := (Stages.keep2_main_v3 (W4 m ρ c)).trans b4_main_v3
  have b5_main_v6 : W5 m ρ c (Proc.devRef .tc main_v6) = (Cert.Spec.dst (m ((c.tc : Thread nD τ).loc main_arg7))) := (Stages.keep2_main_v6 (W4 m ρ c)).trans b4_main_v6
  have b5_main_v28 : W5 m ρ c (Proc.devRef .tc main_v28) = (Cert.Spec.normOf (Cert.Spec.src (m ((c.tc : Thread nD τ).loc main_arg7))) (Cert.Spec.dst (m ((c.tc : Thread nD τ).loc main_arg7)))) := (Stages.keep2_main_v28 (W4 m ρ c)).trans b4_main_v28
  have b5_main_v30 : W5 m ρ c (Proc.devRef .tc main_v30) = (Cert.Spec.biasRow (m ((c.tc : Thread nD τ).loc main_arg4))) := (Stages.keep2_main_v30 (W4 m ρ c)).trans b4_main_v30
  have b5_main_v31 : W5 m ρ c (Proc.devRef .tc main_v31) = (Cert.Spec.biasRow (m ((c.tc : Thread nD τ).loc main_arg6))) := (Stages.keep2_main_v31 (W4 m ρ c)).trans b4_main_v31
  have b5_main_arg5 : W5 m ρ c (Proc.devRef .tc main_arg5) = (m ((c.tc : Thread nD τ).loc main_arg5)) := (Stages.keep2_main_arg5 (W4 m ρ c)).trans b4_main_arg5
  have b5_main_arg8 : W5 m ρ c (Proc.devRef .tc main_arg8) = (m ((c.tc : Thread nD τ).loc main_arg8)) := (Stages.keep2_main_arg8 (W4 m ρ c)).trans b4_main_arg8
  -- the third region: bias, clamp, the dense product with the third weight matrix
  have b6_main_v62 : W6 m ρ c (Proc.devRef .tc main_v62) = (Cert.Spec.hidden (Cert.Spec.agg (m ((c.tc : Thread nD τ).loc main_arg7)) (Cert.Spec.hidden (Cert.Spec.agg (m ((c.tc : Thread nD τ).loc main_arg7)) (Cert.Spec.dense (m ((c.tc : Thread nD τ).loc main_arg0)) (m ((c.tc : Thread nD τ).loc main_arg1)))) (Cert.Spec.biasRow (m ((c.tc : Thread nD τ).loc main_arg2))) (m ((c.tc : Thread nD τ).loc main_arg3)))) (Cert.Spec.biasRow (m ((c.tc : Thread nD τ).loc main_arg4))) (m ((c.tc : Thread nD τ).loc main_arg5))) := by
    refine ((W6_arr m ρ c 3).trans (Region2.final (V5 m ρ) c)).trans ?_
    show Cert.Spec.hidden (W5 m ρ c (Proc.devRef .tc main_v61)) (W5 m ρ c (Proc.devRef .tc main_v30)) (W5 m ρ c (Proc.devRef .tc main_arg5)) = _
    rw [b5_main_v61, b5_main_v30, b5_main_arg5]
  have b6_main_v3 : W6 m ρ c (Proc.devRef .tc main_v3) = (Cert.Spec.src (m ((c.tc : Thread nD τ).loc main_arg7))) := (W6_of_ne m ρ c main_v3 (by decide)).trans b5_main_v3
  have b6_main_v6 : W6 m ρ c (Proc.devRef .tc main_v6) = (Cert.Spec.dst (m ((c.tc : Thread nD τ).loc main_arg7))) := (W6_of_ne m ρ c main_v6 (by decide)).trans b5_main_v6
  have b6_main_v28 : W6 m ρ c (Proc.devRef .tc main_v28) = (Cert.Spec.normOf (Cert.Spec.src (m ((c.tc : Thread nD τ).loc main_arg7))) (Cert.Spec.dst (m ((c.tc : Thread nD τ).loc main_arg7)))) := (W6_of_ne m ρ c main_v28 (by decide)).trans b5_main_v28
  have b6_main_v31 : W6 m ρ c (Proc.devRef .tc main_v31) = (Cert.Spec.biasRow (m ((c.tc : Thread nD τ).loc main_arg6))) := (W6_of_ne m ρ c main_v31 (by decide)).trans b5_main_v31
  have b6_main_arg8 : W6 m ρ c (Proc.devRef .tc main_arg8) = (m ((c.tc : Thread nD τ).loc main_arg8)) := (W6_of_ne m ρ c main_arg8 (by decide)).trans b5_main_arg8
  have b7_main_v76 : W7 m ρ c (Proc.devRef .tc main_v76) = (Cert.Spec.agg (m ((c.tc : Thread nD τ).loc main_arg7)) (Cert.Spec.hidden (Cert.Spec.agg (m ((c.tc : Thread nD τ).loc main_arg7)) (Cert.Spec.hidden (Cert.Spec.agg (m ((c.tc : Thread nD τ).loc main_arg7)) (Cert.Spec.dense (m ((c.tc : Thread nD τ).loc main_arg0)) (m ((c.tc : Thread nD τ).loc main_arg1)))) (Cert.Spec.biasRow (m ((c.tc : Thread nD τ).loc main_arg2))) (m ((c.tc : Thread nD τ).loc main_arg3)))) (Cert.Spec.biasRow (m ((c.tc : Thread nD τ).loc main_arg4))) (m ((c.tc : Thread nD τ).loc main_arg5)))) := by
    refine (Stages.s3_agg (W6 m ρ c)).trans ?_
    rw [b6_main_v3, b6_main_v6, b6_main_v28, b6_main_v62]
    rfl
  have b7_main_v31 : W7 m ρ c (Proc.devRef .tc main_v31) = (Cert.Spec.biasRow (m ((c.tc : Thread nD τ).loc main_arg6))) := (Stages.keep3_main_v31 (W6 m ρ c)).trans b6_main_v31
  have b7_main_arg8 : W7 m ρ c (Proc.devRef .tc main_arg8) = (m ((c.tc : Thread nD τ).loc main_arg8)) := (Stages.keep3_main_arg8 (W6 m ρ c)).trans b6_main_arg8
  -- the last region: the bias on every row
  have b8_main_v77 : W8 m ρ c (Proc.devRef .tc main_v77) = (Cert.Spec.lastOf (Cert.Spec.agg (m ((c.tc : Thread nD τ).loc main_arg7)) (Cert.Spec.hidden (Cert.Spec.agg (m ((c.tc : Thread nD τ).loc main_arg7)) (Cert.Spec.hidden (Cert.Spec.agg (m ((c.tc : Thread nD τ).loc main_arg7)) (Cert.Spec.dense (m ((c.tc : Thread nD τ).loc main_arg0)) (m ((c.tc : Thread nD τ).loc main_arg1)))) (Cert.Spec.biasRow (m ((c.tc : Thread nD τ).loc main_arg2))) (m ((c.tc : Thread nD τ).loc main_arg3)))) (Cert.Spec.biasRow (m ((c.tc : Thread nD τ).loc main_arg4))) (m ((c.tc : Thread nD τ).loc main_arg5)))) (Cert.Spec.biasRow (m ((c.tc : Thread nD τ).loc main_arg6)))) := by
    refine ((W8_arr m ρ c 2).trans (Region3.final (V7 m ρ) c)).trans ?_
    show Cert.Spec.lastOf (W7 m ρ c (Proc.devRef .tc main_v76)) (W7 m ρ c (Proc.devRef .tc main_v31)) = _
    rw [b7_main_v76, b7_main_v31]
  have b8_main_arg8 : W8 m ρ c (Proc.devRef .tc main_arg8) = (m ((c.tc : Thread nD τ).loc main_arg8)) := (W8_of_ne m ρ c main_arg8 (by decide)).trans b7_main_arg8
  -- the scores of the labelled pairs
  refine (Stages.s4_decode (W8 m ρ c)).trans ?_
  rw [b8_main_arg8, b8_main_v77]
  rfl

end Cert.KernelIdeal.Chain

end
-- ==== Proof.RefIs.lean ====
/-
  The reference's result is the network of the argument arrays.
-/
import proofs.«166472_j50886772523473_2_alg».proof.Proof.Gen.ReferenceIdeal.Run
import proofs.«166472_j50886772523473_2_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.TcCoe Idealize.SL.Sem

/-- The composed term of the reference's host operations is, read stage by stage, the network: the same operations
    in the same order, the shared sources, destinations and edge weights named once. -/
theorem result_eq (m : (ℓ : Loc nD τ sig) → Buf (Elt Ideal) ℓ) (c : Dev nD) :
    res_out0 (F := Ideal) m c = Cert.Spec.net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := by
  show res_main_v101 (F := Ideal) m c = _
  unfold res_main_v101 Cert.Spec.net Cert.Spec.decode Cert.Spec.lastOf Cert.Spec.hidden Cert.Spec.agg Cert.Spec.aggOf
    Cert.Spec.normOf Cert.Spec.dinvOf Cert.Spec.wrap Cert.Spec.src Cert.Spec.dst Cert.Spec.dense Cert.Spec.relu
    Cert.Spec.rowsOf Cert.Spec.biasRow Cert.Spec.pick0 Cert.Spec.pick1
  rfl

end Cert.ReferenceIdeal.RefValue

end
-- ==== Proof.lean ====
/-
  A three-layer graph convolution network with an inner-product decoder, computed two ways, is one function on the
  extended reals.

  The kernel keeps the irregular work — gathering rows at the edges' sources, scaling them by the edges' weights and
  summing them into the rows of the edges' destinations — on the host, and runs the dense work in four regions: the
  first layer's product, two fused stages (bias, clamp at zero, the next layer's product) and the last layer's bias,
  each over five blocks of 10000 rows, storing in a narrower format that is the identity at exact values.  The
  reference applies the same operations in the same order to whole arrays.  Block by block each region's output is the
  dense stage of the whole arrays (an entry of a block is an inner product over the same 128 terms as the whole
  product's entry), a bias vector re-laid as a row is the row the reference repeats, and the host operations in
  between are the reference's own; so both results are the network of the argument arrays, and no law of arithmetic
  beyond that is needed, nor the finiteness of the inputs.

  The three frames are the generated ones (the reference's is its generated run with the result dropped); nothing was
  rewritten in the kernel, so its idealization is its own text read at exact values.
-/
import proofs.«166472_j50886772523473_2_alg».proof.Defs
import proofs.«166472_j50886772523473_2_alg».proof.Proof.Gen.Kernel
import proofs.«166472_j50886772523473_2_alg».proof.Proof.Gen.Kernel.Skeleton
import proofs.«166472_j50886772523473_2_alg».proof.Proof.Gen.Kernel.Launch
import proofs.«166472_j50886772523473_2_alg».proof.Proof.Gen.Kernel.Points
import proofs.«166472_j50886772523473_2_alg».proof.Proof.Gen.Kernel.Frame
import proofs.«166472_j50886772523473_2_alg».proof.Proof.Gen.KernelIdeal
import proofs.«166472_j50886772523473_2_alg».proof.Proof.Gen.KernelIdeal.Skeleton
import proofs.«166472_j50886772523473_2_alg».proof.Proof.Gen.KernelIdeal.Launch
import proofs.«166472_j50886772523473_2_alg».proof.Proof.Gen.KernelIdeal.Points
import proofs.«166472_j50886772523473_2_alg».proof.Proof.Gen.KernelIdeal.Frame
import proofs.«166472_j50886772523473_2_alg».proof.Proof.Gen.ReferenceIdeal
import proofs.«166472_j50886772523473_2_alg».proof.Proof.Gen.ReferenceIdeal.Run
import proofs.«166472_j50886772523473_2_alg».proof.Proof.Gen.Pre_finite_inputs
import proofs.«166472_j50886772523473_2_alg».proof.Proof.KRun
import proofs.«166472_j50886772523473_2_alg».proof.Proof.Chain
import proofs.«166472_j50886772523473_2_alg».proof.Proof.RefIs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network of those arguments in their result
    buffers: the kernel by its run and the boundary contents read back, the reference by its run and its composed term
    read stage by stage. -/
theorem algebraic : Cert.algebraic_KernelIdeal_ReferenceIdeal := by
  intro m ρ m' ρ' _ hagree
  refine ⟨fun c => Cert.Spec.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Chain.result m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    refine (Cert.ReferenceIdeal.RefValue.result_eq m' c).trans ?_
    rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
